-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  main_v3
-- ==== Kernel.lean ====
abbrev S2048x64 : Shape := ⟨2, ![2048, 64]⟩
abbrev S64x2048 : Shape := ⟨2, ![64, 2048]⟩
abbrev S2048x2048 : Shape := ⟨2, ![2048, 2048]⟩
abbrev S512x64 : Shape := ⟨2, ![512, 64]⟩
abbrev S64x512 : Shape := ⟨2, ![64, 512]⟩
abbrev S512x512 : Shape := ⟨2, ![512, 512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S64x2048, .f32⟩
  | .hbm, ⟨2, _⟩ => ⟨S2048x2048, .f32⟩
  | .local _ .vmem, ⟨0, _⟩ => ⟨S512x64, .f32⟩
  | .local _ .vmem, ⟨1, _⟩ => ⟨S512x64, .f32⟩
  | .local _ .vmem, ⟨2, _⟩ => ⟨S64x512, .f32⟩
  | .local _ .vmem, ⟨3, _⟩ => ⟨S64x512, .f32⟩
  | .local _ .vmem, ⟨4, _⟩ => ⟨S512x512, .f32⟩
  | .local _ .vmem, ⟨5, _⟩ => ⟨S512x512, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x64_S64x2048_1_0 : S2048x64.Transposes [1, 0] S64x2048
  inb_S512x64_S512x1_0_0 : ∀ a, (![0, 0] : Fin 2 → Nat) a + S512x1.size a ≤ S512x64.size a
  h_S512x1 : 0 < S512x1.numel
  inb_S64x512_S1x512_0_0 : ∀ a, (![0, 0] : Fin 2 → Nat) a + S1x512.size a ≤ S64x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x64_S512x1_0_1 : ∀ a, (![0, 1] : Fin 2 → Nat) a + S512x1.size a ≤ S512x64.size a
  inb_S64x512_S1x512_1_0 : ∀ a, (![1, 0] : Fin 2 → Nat) a + S1x512.size a ≤ S64x512.size a
  inb_S512x64_S512x1_0_2 : ∀ a, (![0, 2] : Fin 2 → Nat) a + S512x1.size a ≤ S512x64.size a
  inb_S64x512_S1x512_2_0 : ∀ a, (![2, 0] : Fin 2 → Nat) a + S1x512.size a ≤ S64x512.size a
  inb_S512x64_S512x1_0_3 : ∀ a, (![0, 3] : Fin 2 → Nat) a + S512x1.size a ≤ S512x64.size a
  inb_S64x512_S1x512_3_0 : ∀ a, (![3, 0] : Fin 2 → Nat) a + S1x512.size a ≤ S64x512.size a
  inb_S512x64_S512x1_0_4 : ∀ a, (![0, 4] : Fin 2 → Nat) a + S512x1.size a ≤ S512x64.size a
  inb_S64x512_S1x512_4_0 : ∀ a, (![4, 0] : Fin 2 → Nat) a + S1x512.size a ≤ S64x512.size a
  inb_S512x64_S512x1_0_5 : ∀ a, (![0, 5] : Fin 2 → Nat) a + S512x1.size a ≤ S512x64.size a
  inb_S64x512_S1x512_5_0 : ∀ a, (![5, 0] : Fin 2 → Nat) a + S1x512.size a ≤ S64x512.size a
  inb_S512x64_S512x1_0_6 : ∀ a, (![0, 6] : Fin 2 → Nat) a + S512x1.size a ≤ S512x64.size a
  inb_S64x512_S1x512_6_0 : ∀ a, (![6, 0] : Fin 2 → Nat) a + S1x512.size a ≤ S64x512.size a
  inb_S512x64_S512x1_0_7 : ∀ a, (![0, 7] : Fin 2 → Nat) a + S512x1.size a ≤ S512x64.size a
  inb_S64x512_S1x512_7_0 : ∀ a, (![7, 0] : Fin 2 → Nat) a + S1x512.size a ≤ S64x512.size a
  inb_S512x64_S512x1_0_8 : ∀ a, (![0, 8] : Fin 2 → Nat) a + S512x1.size a ≤ S512x64.size a
  inb_S64x512_S1x512_8_0 : ∀ a, (![8, 0] : Fin 2 → Nat) a + S1x512.size a ≤ S64x512.size a
  inb_S512x64_S512x1_0_9 : ∀ a, (![0, 9] : Fin 2 → Nat) a + S512x1.size a ≤ S512x64.size a
  inb_S64x512_S1x512_9_0 : ∀ a, (![9, 0] : Fin 2 → Nat) a + S1x512.size a ≤ S64x512.size a
  inb_S512x64_S512x1_0_10 : ∀ a, (![0, 10] : Fin 2 → Nat) a + S512x1.size a ≤ S512x64.size a
  inb_S64x512_S1x512_10_0 : ∀ a, (![10, 0] : Fin 2 → Nat) a + S1x512.size a ≤ S64x512.size a
  inb_S512x64_S512x1_0_11 : ∀ a, (![0, 11] : Fin 2 → Nat) a + S512x1.size a ≤ S512x64.size a
  inb_S64x512_S1x512_11_0 : ∀ a, (![11, 0] : Fin 2 → Nat) a + S1x512.size a ≤ S64x512.size a
  inb_S512x64_S512x1_0_12 : ∀ a, (![0, 12] : Fin 2 → Nat) a + S512x1.size a ≤ S512x64.size a
  inb_S64x512_S1x512_12_0 : ∀ a, (![12, 0] : Fin 2 → Nat) a + S1x512.size a ≤ S64x512.size a
  inb_S512x64_S512x1_0_13 : ∀ a, (![0, 13] : Fin 2 → Nat) a + S512x1.size a ≤ S512x64.size a
  inb_S64x512_S1x512_13_0 : ∀ a, (![13, 0] : Fin 2 → Nat) a + S1x512.size a ≤ S64x512.size a
  inb_S512x64_S512x1_0_14 : ∀ a, (![0, 14] : Fin 2 → Nat) a + S512x1.size a ≤ S512x64.size a
  inb_S64x512_S1x512_14_0 : ∀ a, (![14, 0] : Fin 2 → Nat) a + S1x512.size a ≤ S64x512.size a
  inb_S512x64_S512x1_0_15 : ∀ a, (![0, 15] : Fin 2 → Nat) a + S512x1.size a ≤ S512x64.size a
  inb_S64x512_S1x512_15_0 : ∀ a, (![15, 0] : Fin 2 → Nat) a + S1x512.size a ≤ S64x512.size a
  inb_S512x64_S512x1_0_16 : ∀ a, (![0, 16] : Fin 2 → Nat) a + S512x1.size a ≤ S512x64.size a
  inb_S64x512_S1x512_16_0 : ∀ a, (![16, 0] : Fin 2 → Nat) a + S1x512.size a ≤ S64x512.size a
  inb_S512x64_S512x1_0_17 : ∀ a, (![0, 17] : Fin 2 → Nat) a + S512x1.size a ≤ S512x64.size a
  inb_S64x512_S1x512_17_0 : ∀ a, (![17, 0] : Fin 2 → Nat) a + S1x512.size a ≤ S64x512.size a
  inb_S512x64_S512x1_0_18 : ∀ a, (![0, 18] : Fin 2 → Nat) a + S512x1.size a ≤ S512x64.size a
  inb_S64x512_S1x512_18_0 : ∀ a, (![18, 0] : Fin 2 → Nat) a + S1x512.size a ≤ S64x512.size a
  inb_S512x64_S512x1_0_19 : ∀ a, (![0, 19] : Fin 2 → Nat) a + S512x1.size a ≤ S512x64.size a
  inb_S64x512_S1x512_19_0 : ∀ a, (![19, 0] : Fin 2 → Nat) a + S1x512.size a ≤ S64x512.size a
  inb_S512x64_S512x1_0_20 : ∀ a, (![0, 20] : Fin 2 → Nat) a + S512x1.size a ≤ S512x64.size a
  inb_S64x512_S1x512_20_0 : ∀ a, (![20, 0] : Fin 2 → Nat) a + S1x512.size a ≤ S64x512.size a
  inb_S512x64_S512x1_0_21 : ∀ a, (![0, 21] : Fin 2 → Nat) a + S512x1.size a ≤ S512x64.size a
  inb_S64x512_S1x512_21_0 : ∀ a, (![21, 0] : Fin 2 → Nat) a + S1x512.size a ≤ S64x512.size a
  inb_S512x64_S512x1_0_22 : ∀ a, (![0, 22] : Fin 2 → Nat) a + S512x1.size a ≤ S512x64.size a
  inb_S64x512_S1x512_22_0 : ∀ a, (![22, 0] : Fin 2 → Nat) a + S1x512.size a ≤ S64x512.size a
  inb_S512x64_S512x1_0_23 : ∀ a, (![0, 23] : Fin 2 → Nat) a + S512x1.size a ≤ S512x64.size a
  inb_S64x512_S1x512_23_0 : ∀ a, (![23, 0] : Fin 2 → Nat) a + S1x512.size a ≤ S64x512.size a
  inb_S512x64_S512x1_0_24 : ∀ a, (![0, 24] : Fin 2 → Nat) a + S512x1.size a ≤ S512x64.size a
  inb_S64x512_S1x512_24_0 : ∀ a, (![24, 0] : Fin 2 → Nat) a + S1x512.size a ≤ S64x512.size a
  inb_S512x64_S512x1_0_25 : ∀ a, (![0, 25] : Fin 2 → Nat) a + S512x1.size a ≤ S512x64.size a
  inb_S64x512_S1x512_25_0 : ∀ a, (![25, 0] : Fin 2 → Nat) a + S1x512.size a ≤ S64x512.size a
  inb_S512x64_S512x1_0_26 : ∀ a, (![0, 26] : Fin 2 → Nat) a + S512x1.size a ≤ S512x64.size a
  inb_S64x512_S1x512_26_0 : ∀ a, (![26, 0] : Fin 2 → Nat) a + S1x512.size a ≤ S64x512.size a
  inb_S512x64_S512x1_0_27 : ∀ a, (![0, 27] : Fin 2 → Nat) a + S512x1.size a ≤ S512x64.size a
  inb_S64x512_S1x512_27_0 : ∀ a, (![27, 0] : Fin 2 → Nat) a + S1x512.size a ≤ S64x512.size a
  inb_S512x64_S512x1_0_28 : ∀ a, (![0, 28] : Fin 2 → Nat) a + S512x1.size a ≤ S512x64.size a
  inb_S64x512_S1x512_28_0 : ∀ a, (![28, 0] : Fin 2 → Nat) a + S1x512.size a ≤ S64x512.size a
  inb_S512x64_S512x1_0_29 : ∀ a, (![0, 29] : Fin 2 → Nat) a + S512x1.size a ≤ S512x64.size a
  inb_S64x512_S1x512_29_0 : ∀ a, (![29, 0] : Fin 2 → Nat) a + S1x512.size a ≤ S64x512.size a
  inb_S512x64_S512x1_0_30 : ∀ a, (![0, 30] : Fin 2 → Nat) a + S512x1.size a ≤ S512x64.size a
  inb_S64x512_S1x512_30_0 : ∀ a, (![30, 0] : Fin 2 → Nat) a + S1x512.size a ≤ S64x512.size a
  inb_S512x64_S512x1_0_31 : ∀ a, (![0, 31] : Fin 2 → Nat) a + S512x1.size a ≤ S512x64.size a
  inb_S64x512_S1x512_31_0 : ∀ a, (![31, 0] : Fin 2 → Nat) a + S1x512.size a ≤ S64x512.size a
  inb_S512x64_S512x1_0_32 : ∀ a, (![0, 32] : Fin 2 → Nat) a + S512x1.size a ≤ S512x64.size a
  inb_S64x512_S1x512_32_0 : ∀ a, (![32, 0] : Fin 2 → Nat) a + S1x512.size a ≤ S64x512.size a
  inb_S512x64_S512x1_0_33 : ∀ a, (![0, 33] : Fin 2 → Nat) a + S512x1.size a ≤ S512x64.size a
  inb_S64x512_S1x512_33_0 : ∀ a, (![33, 0] : Fin 2 → Nat) a + S1x512.size a ≤ S64x512.size a
  inb_S512x64_S512x1_0_34 : ∀ a, (![0, 34] : Fin 2 → Nat) a + S512x1.size a ≤ S512x64.size a
  inb_S64x512_S1x512_34_0 : ∀ a, (![34, 0] : Fin 2 → Nat) a + S1x512.size a ≤ S64x512.size a
  inb_S512x64_S512x1_0_35 : ∀ a, (![0, 35] : Fin 2 → Nat) a + S512x1.size a ≤ S512x64.size a
  inb_S64x512_S1x512_35_0 : ∀ a, (![35, 0] : Fin 2 → Nat) a + S1x512.size a ≤ S64x512.size a
  inb_S512x64_S512x1_0_36 : ∀ a, (![0, 36] : Fin 2 → Nat) a + S512x1.size a ≤ S512x64.size a
  inb_S64x512_S1x512_36_0 : ∀ a, (![36, 0] : Fin 2 → Nat) a + S1x512.size a ≤ S64x512.size a
  inb_S512x64_S512x1_0_37 : ∀ a, (![0, 37] : Fin 2 → Nat) a + S512x1.size a ≤ S512x64.size a
  inb_S64x512_S1x512_37_0 : ∀ a, (![37, 0] : Fin 2 → Nat) a + S1x512.size a ≤ S64x512.size a
  inb_S512x64_S512x1_0_38 : ∀ a, (![0, 38] : Fin 2 → Nat) a + S512x1.size a ≤ S512x64.size a
  inb_S64x512_S1x512_38_0 : ∀ a, (![38, 0] : Fin 2 → Nat) a + S1x512.size a ≤ S64x512.size a
  inb_S512x64_S512x1_0_39 : ∀ a, (![0, 39] : Fin 2 → Nat) a + S512x1.size a ≤ S512x64.size a
  inb_S64x512_S1x512_39_0 : ∀ a, (![39, 0] : Fin 2 → Nat) a + S1x512.size a ≤ S64x512.size a
  inb_S512x64_S512x1_0_40 : ∀ a, (![0, 40] : Fin 2 → Nat) a + S512x1.size a ≤ S512x64.size a
  inb_S64x512_S1x512_40_0 : ∀ a, (![40, 0] : Fin 2 → Nat) a + S1x512.size a ≤ S64x512.size a
  inb_S512x64_S512x1_0_41 : ∀ a, (![0, 41] : Fin 2 → Nat) a + S512x1.size a ≤ S512x64.size a
  inb_S64x512_S1x512_41_0 : ∀ a, (![41, 0] : Fin 2 → Nat) a + S1x512.size a ≤ S64x512.size a
  inb_S512x64_S512x1_0_42 : ∀ a, (![0, 42] : Fin 2 → Nat) a + S512x1.size a ≤ S512x64.size a
  inb_S64x512_S1x512_42_0 : ∀ a, (![42, 0] : Fin 2 → Nat) a + S1x512.size a ≤ S64x512.size a
  inb_S512x64_S512x1_0_43 : ∀ a, (![0, 43] : Fin 2 → Nat) a + S512x1.size a ≤ S512x64.size a
  inb_S64x512_S1x512_43_0 : ∀ a, (![43, 0] : Fin 2 → Nat) a + S1x512.size a ≤ S64x512.size a
  inb_S512x64_S512x1_0_44 : ∀ a, (![0, 44] : Fin 2 → Nat) a + S512x1.size a ≤ S512x64.size a
  inb_S64x512_S1x512_44_0 : ∀ a, (![44, 0] : Fin 2 → Nat) a + S1x512.size a ≤ S64x512.size a
  inb_S512x64_S512x1_0_45 : ∀ a, (![0, 45] : Fin 2 → Nat) a + S512x1.size a ≤ S512x64.size a
  inb_S64x512_S1x512_45_0 : ∀ a, (![45, 0] : Fin 2 → Nat) a + S1x512.size a ≤ S64x512.size a
  inb_S512x64_S512x1_0_46 : ∀ a, (![0, 46] : Fin 2 → Nat) a + S512x1.size a ≤ S512x64.size a
  inb_S64x512_S1x512_46_0 : ∀ a, (![46, 0] : Fin 2 → Nat) a + S1x512.size a ≤ S64x512.size a
  inb_S512x64_S512x1_0_47 : ∀ a, (![0, 47] : Fin 2 → Nat) a + S512x1.size a ≤ S512x64.size a
  inb_S64x512_S1x512_47_0 : ∀ a, (![47, 0] : Fin 2 → Nat) a + S1x512.size a ≤ S64x512.size a
  inb_S512x64_S512x1_0_48 : ∀ a, (![0, 48] : Fin 2 → Nat) a + S512x1.size a ≤ S512x64.size a
  inb_S64x512_S1x512_48_0 : ∀ a, (![48, 0] : Fin 2 → Nat) a + S1x512.size a ≤ S64x512.size a
  inb_S512x64_S512x1_0_49 : ∀ a, (![0, 49] : Fin 2 → Nat) a + S512x1.size a ≤ S512x64.size a
  inb_S64x512_S1x512_49_0 : ∀ a, (![49, 0] : Fin 2 → Nat) a + S1x512.size a ≤ S64x512.size a
  inb_S512x64_S512x1_0_50 : ∀ a, (![0, 50] : Fin 2 → Nat) a + S512x1.size a ≤ S512x64.size a
  inb_S64x512_S1x512_50_0 : ∀ a, (![50, 0] : Fin 2 → Nat) a + S1x512.size a ≤ S64x512.size a
  inb_S512x64_S512x1_0_51 : ∀ a, (![0, 51] : Fin 2 → Nat) a + S512x1.size a ≤ S512x64.size a
  inb_S64x512_S1x512_51_0 : ∀ a, (![51, 0] : Fin 2 → Nat) a + S1x512.size a ≤ S64x512.size a
  inb_S512x64_S512x1_0_52 : ∀ a, (![0, 52] : Fin 2 → Nat) a + S512x1.size a ≤ S512x64.size a
  inb_S64x512_S1x512_52_0 : ∀ a, (![52, 0] : Fin 2 → Nat) a + S1x512.size a ≤ S64x512.size a
  inb_S512x64_S512x1_0_53 : ∀ a, (![0, 53] : Fin 2 → Nat) a + S512x1.size a ≤ S512x64.size a
  inb_S64x512_S1x512_53_0 : ∀ a, (![53, 0] : Fin 2 → Nat) a + S1x512.size a ≤ S64x512.size a
  inb_S512x64_S512x1_0_54 : ∀ a, (![0, 54] : Fin 2 → Nat) a + S512x1.size a ≤ S512x64.size a
  inb_S64x512_S1x512_54_0 : ∀ a, (![54, 0] : Fin 2 → Nat) a + S1x512.size a ≤ S64x512.size a
  inb_S512x64_S512x1_0_55 : ∀ a, (![0, 55] : Fin 2 → Nat) a + S512x1.size a ≤ S512x64.size a
  inb_S64x512_S1x512_55_0 : ∀ a, (![55, 0] : Fin 2 → Nat) a + S1x512.size a ≤ S64x512.size a
  inb_S512x64_S512x1_0_56 : ∀ a, (![0, 56] : Fin 2 → Nat) a + S512x1.size a ≤ S512x64.size a
  inb_S64x512_S1x512_56_0 : ∀ a, (![56, 0] : Fin 2 → Nat) a + S1x512.size a ≤ S64x512.size a
  inb_S512x64_S512x1_0_57 : ∀ a, (![0, 57] : Fin 2 → Nat) a + S512x1.size a ≤ S512x64.size a
  inb_S64x512_S1x512_57_0 : ∀ a, (![57, 0] : Fin 2 → Nat) a + S1x512.size a ≤ S64x512.size a
  inb_S512x64_S512x1_0_58 : ∀ a, (![0, 58] : Fin 2 → Nat) a + S512x1.size a ≤ S512x64.size a
  inb_S64x512_S1x512_58_0 : ∀ a, (![58, 0] : Fin 2 → Nat) a + S1x512.size a ≤ S64x512.size a
  inb_S512x64_S512x1_0_59 : ∀ a, (![0, 59] : Fin 2 → Nat) a + S512x1.size a ≤ S512x64.size a
  inb_S64x512_S1x512_59_0 : ∀ a, (![59, 0] : Fin 2 → Nat) a + S1x512.size a ≤ S64x512.size a
  inb_S512x64_S512x1_0_60 : ∀ a, (![0, 60] : Fin 2 → Nat) a + S512x1.size a ≤ S512x64.size a
  inb_S64x512_S1x512_60_0 : ∀ a, (![60, 0] : Fin 2 → Nat) a + S1x512.size a ≤ S64x512.size a
  inb_S512x64_S512x1_0_61 : ∀ a, (![0, 61] : Fin 2 → Nat) a + S512x1.size a ≤ S512x64.size a
  inb_S64x512_S1x512_61_0 : ∀ a, (![61, 0] : Fin 2 → Nat) a + S1x512.size a ≤ S64x512.size a
  inb_S512x64_S512x1_0_62 : ∀ a, (![0, 62] : Fin 2 → Nat) a + S512x1.size a ≤ S512x64.size a
  inb_S64x512_S1x512_62_0 : ∀ a, (![62, 0] : Fin 2 → Nat) a + S1x512.size a ≤ S64x512.size a
  inb_S512x64_S512x1_0_63 : ∀ a, (![0, 63] : Fin 2 → Nat) a + S512x1.size a ≤ S512x64.size a
  inb_S64x512_S1x512_63_0 : ∀ a, (![63, 0] : Fin 2 → Nat) a + S1x512.size a ≤ S64x512.size a
  inb_S512x512_S512x512_0_0 : ∀ a, (![0, 0] : Fin 2 → Nat) a + S512x512.size a ≤ S512x512.size a
  h_S512x512 : 0 < S512x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x2048.size a
  hwx0_1 : ∀ i : grid0.Coords, EltTy.bits .f32 = 32 ∨ (Rect.block (s := S64x2048) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x1x64, .f32⟩
  | .hbm, ⟨2, _⟩ => ⟨S1x2048x64, .f32⟩
  | .hbm, ⟨3, _⟩ => ⟨S2048x2048x64, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  h_S_ : 0 < S_.numel

variable [Facts₀]

class Facts : Prop extends Facts₀ where

variable [Facts]
-- ==== Proof.L1Mask.lean ====
/-
  The function both programs compute, on the extended reals: for a matrix `a` of `n` rows and a matrix `b` of `m`
  columns, both of depth `d`, the entry `(i, j)` of the result is `exp (−Σ_k |a[i,k] − b[k,j]|)` — the exponential of minus
  the L1 distance between row `i` of `a` and column `j` of `b`. With `b` the transpose of `a` this is the pairwise
  L1 "mask" of the rows of `a` (`pairMask`).
  Also here: a sum of 64 terms added one after the other onto a start value is the start value plus the sum over
  `Fin 64` (addition on the extended reals is associative, so no finiteness is needed).
-/
import Idealize.ShloMosaic.PureOps.Ideal
import Idealize.ShloMosaic.PureOps.Ideal.Laws
import Idealize.ShloMosaic.Lib.ValueIdx

noncomputable section

open scoped BigOperators

namespace Cert.L1Mask

open Idealize.ShloMosaic Idealize.ShloMosaic.ValueIdx

/-- `|x − y|` on the extended reals, spelt as the float operations spell it: the larger of the difference and its
    negation. -/
def absd (x y : EReal) : EReal := max (x - y) (-(x - y))

/-- `mask a b (i, j) = exp (−Σ_k |a[i,k] − b[k,j]|)`. -/
def mask {n m d : ℕ} (a : (⟨2, ![n, d]⟩ : Shape).Idx → EReal) (b : (⟨2, ![d, m]⟩ : Shape).Idx → EReal) :
    (⟨2, ![n, m]⟩ : Shape).Idx → EReal :=
  fun i => Ideal.exp (-(∑ k : Fin d, absd (a (ix2 (i 0) k)) (b (ix2 k (i 1)))))

theorem mask_apply {n m d : ℕ} (a : (⟨2, ![n, d]⟩ : Shape).Idx → EReal) (b : (⟨2, ![d, m]⟩ : Shape).Idx → EReal)
    (p : Fin n) (q : Fin m) :
    mask a b (ix2 p q) = Ideal.exp (-(∑ k : Fin d, absd (a (ix2 p k)) (b (ix2 k q)))) := rfl

/-- The pairwise mask of the rows of ONE matrix `x`: `mask` of `x` and its transpose,
    `pairMask x (i, j) = exp (−Σ_k |x[i,k] − x[j,k]|)`. -/
def pairMask {n d : ℕ} (x : (⟨2, ![n, d]⟩ : Shape).Idx → EReal) : (⟨2, ![n, n]⟩ : Shape).Idx → EReal :=
  mask x (fun j => x (ix2 (j 1) (j 0)))

theorem pairMask_apply {n d : ℕ} (x : (⟨2, ![n, d]⟩ : Shape).Idx → EReal) (i : (⟨2, ![n, n]⟩ : Shape).Idx) :
    pairMask x i = Ideal.exp (-(∑ k : Fin d, absd (x (ix2 (i 0) k)) (x (ix2 (i 1) k)))) := rfl

/-- The natural number `i` as an index below 64 (its residue; for `i < 64` itself). -/
def fin64 (i : ℕ) : Fin 64 := ⟨i % 64, Nat.mod_lt _ (by norm_num)⟩

/-- Sixty-four terms added one after the other onto `z`, in the order `0, 1, …, 63`, make `z` plus their sum. -/
theorem chain64 (g : Fin 64 → EReal) (z : EReal) :
    z + g ⟨0, by norm_num⟩ + g ⟨1, by norm_num⟩ + g ⟨2, by norm_num⟩ + g ⟨3, by norm_num⟩ + g ⟨4, by norm_num⟩ + g ⟨5, by norm_num⟩ + g ⟨6, by norm_num⟩ + g ⟨7, by norm_num⟩ + g ⟨8, by norm_num⟩ + g ⟨9, by norm_num⟩ + g ⟨10, by norm_num⟩ + g ⟨11, by norm_num⟩ + g ⟨12, by norm_num⟩ + g ⟨13, by norm_num⟩ + g ⟨14, by norm_num⟩ + g ⟨15, by norm_num⟩ + g ⟨16, by norm_num⟩ + g ⟨17, by norm_num⟩ + g ⟨18, by norm_num⟩ + g ⟨19, by norm_num⟩ + g ⟨20, by norm_num⟩ + g ⟨21, by norm_num⟩ + g ⟨22, by norm_num⟩ + g ⟨23, by norm_num⟩ + g ⟨24, by norm_num⟩ + g ⟨25, by norm_num⟩ + g ⟨26, by norm_num⟩ + g ⟨27, by norm_num⟩ + g ⟨28, by norm_num⟩ + g ⟨29, by norm_num⟩ + g ⟨30, by norm_num⟩ + g ⟨31, by norm_num⟩ + g ⟨32, by norm_num⟩ + g ⟨33, by norm_num⟩ + g ⟨34, by norm_num⟩ + g ⟨35, by norm_num⟩ + g ⟨36, by norm_num⟩ + g ⟨37, by norm_num⟩ + g ⟨38, by norm_num⟩ + g ⟨39, by norm_num⟩ + g ⟨40, by norm_num⟩ + g ⟨41, by norm_num⟩ + g ⟨42, by norm_num⟩ + g ⟨43, by norm_num⟩ + g ⟨44, by norm_num⟩ + g ⟨45, by norm_num⟩ + g ⟨46, by norm_num⟩ + g ⟨47, by norm_num⟩ + g ⟨48, by norm_num⟩ + g ⟨49, by norm_num⟩ + g ⟨50, by norm_num⟩ + g ⟨51, by norm_num⟩ + g ⟨52, by norm_num⟩ + g ⟨53, by norm_num⟩ + g ⟨54, by norm_num⟩ + g ⟨55, by norm_num⟩ + g ⟨56, by norm_num⟩ + g ⟨57, by norm_num⟩ + g ⟨58, by norm_num⟩ + g ⟨59, by norm_num⟩ + g ⟨60, by norm_num⟩ + g ⟨61, by norm_num⟩ + g ⟨62, by norm_num⟩ + g ⟨63, by norm_num⟩
      = z + ∑ k : Fin 64, g k := by
  have h : ∑ k : Fin 64, g k = ∑ i ∈ Finset.range 64, g (fin64 i) := by
    rw [Finset.sum_range]
    exact Finset.sum_congr rfl fun k _ => congrArg g (Fin.ext (Nat.mod_eq_of_lt k.isLt).symm)
  rw [h]
  simp only [Finset.sum_range_succ, Finset.sum_range_zero, zero_add, ← add_assoc]
  rfl

end Cert.L1Mask

end
-- ==== Proof.LibBlockLoads.lean ====
/-
  A block's columns and rows as a kernel body loads and re-lays them, each read at one entry; general in the extents and
  the element type, over the library only.
  `broadcastTo_a1_ab_apply`: a column `[a, 1]` broadcast along the lanes to `[a, b]` reads, at `(p, c)`, the column's
  entry `p` (the row form, `[1, b]` to `[a, b]`, is the library's `broadcastTo_1b_ab_apply`).
  `ld_col`: a load of column `k` of an `[a, d]` block as an `[a, 1]` vector, read at row `p`, is the block's entry `(p, k)`.
  `ld_row`: a load of row `k` of a `[d, b]` block as a `[1, b]` vector, read at lane `q`, is the block's entry `(k, q)`.
-/
import Idealize.ShloMosaic.Lib.ValueLayout
import Idealize.ShloMosaic.Lib.Pipeline.FrameBody

noncomputable section

open scoped BigOperators

namespace Cert.BlockLoads

open Idealize.ShloMosaic Idealize.ShloMosaic.ValueIdx

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of an `[a, d]` block, loaded as an `[a, 1]` vector, holds at row `p` the block's entry `(p, k)`. -/
theorem ld_col {Val : EltTy → Type} {e : EltTy} {a d : ℕ} (x : (⟨2, ![a, d]⟩ : Shape).Idx → Val e) (k : ℕ) (hk : k < d)
    (inb : ∀ ax, (![0, k] : Fin 2 → ℕ) ax + (⟨2, ![a, 1]⟩ : Shape).size ax ≤ (⟨2, ![a, d]⟩ : Shape).size ax) (p : Fin a) :
    View.ld x (Rect.unit (s := ⟨2, ![a, d]⟩) ![0, k] (⟨2, ![a, 1]⟩ : Shape).size inb) (ix2 p (0 : Fin 1))
      = x (ix2 p ⟨k, hk⟩) := by
  show x _ = x _
  refine congrArg x (funext fun ax => Fin.ext ?_)
  match ax with
  | ⟨0, _⟩ => show 0 + 1 * p.val = p.val; omega
  | ⟨1, _⟩ => show k + 1 * 0 = k; omega

/-- Row `k` of a `[d, b]` block, loaded as a `[1, b]` vector, holds at lane `q` the block's entry `(k, q)`. -/
theorem ld_row {Val : EltTy → Type} {e : EltTy} {d b : ℕ} (x : (⟨2, ![d, b]⟩ : Shape).Idx → Val e) (k : ℕ) (hk : k < d)
    (inb : ∀ ax, (![k, 0] : Fin 2 → ℕ) ax + (⟨2, ![1, b]⟩ : Shape).size ax ≤ (⟨2, ![d, b]⟩ : Shape).size ax) (q : Fin b) :
    View.ld x (Rect.unit (s := ⟨2, ![d, b]⟩) ![k, 0] (⟨2, ![1, b]⟩ : Shape).size inb) (ix2 (0 : Fin 1) q)
      = x (ix2 ⟨k, hk⟩ q) := by
  show x _ = x _
  refine congrArg x (funext fun ax => Fin.ext ?_)
  match ax with
  | ⟨0, _⟩ => show k + 1 * 0 = k; omega
  | ⟨1, _⟩ => show 0 + 1 * q.val = q.val; omega

end Cert.BlockLoads

end
-- ==== Proof.Payloads.lean ====
/-
  The body's arithmetic read at one entry `(p, q)` of the output block, part by part.
  The body adds, for `k = 0, …, 63`, the term `|A_k[p] − B_k[q]|` onto an accumulator that starts at the zero word, where
  `A_k` is column `k` of the row block (loaded as a `[512, 1]` vector and broadcast along the lanes) and `B_k` is row `k`
  of the column block (loaded as a `[1, 512]` vector and broadcast along the sublanes); it ends with
  `exp (0 − accumulator)`. The printed body is cut into thirteen parts; a part hands the next one its accumulator and the
  already re-laid column and row of the term it has loaded but not yet added. Each lemma below reads one part's value
  at `(p, q)`: the accumulator it was given there plus its terms, in the order they are added.
-/
import proofs.«104463_j32564442038291_2_alg».proof.Proof.Gen.KernelIdeal.Skeleton
import proofs.«104463_j32564442038291_2_alg».proof.Proof.L1Mask
import proofs.«104463_j32564442038291_2_alg».proof.Proof.LibBlockLoads

noncomputable section

open scoped BigOperators

namespace Cert.KernelIdeal.Body

open Cert.KernelIdeal Cert.KernelIdeal.Gen Idealize.ShloMosaic Idealize.ShloMosaic.ValueIdx Cert.L1Mask Cert.BlockLoads

/-- The accumulator's start value, the zero word read as an extended real. -/
abbrev Z : Ideal .f32 := Scalar.ofBits .f32 0x00000000#32

/-- One term at `(p, q)`: `|A[p] − B[q]|` for a loaded column `A` and a loaded row `B`. -/
def term (A : Vec Ideal S512x1 .f32) (B : Vec Ideal S1x512 .f32) (p q : Fin 512) : EReal :=
  absd (A (ix2 p (0 : Fin 1))) (B (ix2 (0 : Fin 1) q))

theorem absf_apply {s : Shape} {φ : FTy} (a : FVec Ideal s φ) (i : s.Idx) : absf a i = max (a i) (-(a i)) := rfl
theorem exp_apply {s : Shape} {φ : FTy} (a : FVec Ideal s φ) (i : s.Idx) : exp a i = Ideal.exp (a i) := rfl

/-- A loaded column broadcast along the lanes, at `(p, q)`, is the column at `p`. -/
theorem colB (A : FVec Ideal S512x1 .f32) (p q : Fin 512) :
    broadcastTo S512x512 A broadcasts_S512x1_S512x512 (ix2 p q) = A (ix2 p (0 : Fin 1)) :=
  broadcastTo_a1_ab_apply A _ p q

/-- A loaded row broadcast along the sublanes, at `(p, q)`, is the row at `q`. -/
theorem rowB (R : FVec Ideal S1x512 .f32) (p q : Fin 512) :
    broadcastTo S512x512 R broadcasts_S1x512_S512x512 (ix2 p q) = R (ix2 (0 : Fin 1) q) :=
  broadcastTo_1b_ab_apply R _ p q

/-- The first part: the zero word plus the terms `k = 0, 1, 2, 3`. -/
theorem pay1_apply (A0 : Vec Ideal S512x1 .f32) (B0 : Vec Ideal S1x512 .f32) (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (p q : Fin 512) :
    k0_pay1 (F := Ideal) A0 B0 A1 B1 A2 B2 A3 B3 (ix2 p q)
      = Z + term A0 B0 p q + term A1 B1 p q + term A2 B2 p q + term A3 B3 p q := by
  unfold k0_pay1
  simp only [addf_apply, subf_apply, absf_apply, exp_apply, broadcast_apply, shapeCast_self, colB, rowB, term, absd]

/-! The row a part hands on is the loaded row itself (the cast keeps its shape), and the column it hands on, already
    broadcast, reads at `(p, q)` the loaded column at `p`. -/

theorem pay2_eq (B : Vec Ideal S1x512 .f32) : k0_pay2 (F := Ideal) B = B := by
  unfold k0_pay2; exact shapeCast_self B _
theorem pay5_eq (B : Vec Ideal S1x512 .f32) : k0_pay5 (F := Ideal) B = B := by
  unfold k0_pay5; exact shapeCast_self B _
theorem pay8_eq (B : Vec Ideal S1x512 .f32) : k0_pay8 (F := Ideal) B = B := by
  unfold k0_pay8; exact shapeCast_self B _
theorem pay11_eq (B : Vec Ideal S1x512 .f32) : k0_pay11 (F := Ideal) B = B := by
  unfold k0_pay11; exact shapeCast_self B _
theorem pay14_eq (B : Vec Ideal S1x512 .f32) : k0_pay14 (F := Ideal) B = B := by
  unfold k0_pay14; exact shapeCast_self B _
theorem pay17_eq (B : Vec Ideal S1x512 .f32) : k0_pay17 (F := Ideal) B = B := by
  unfold k0_pay17; exact shapeCast_self B _
theorem pay20_eq (B : Vec Ideal S1x512 .f32) : k0_pay20 (F := Ideal) B = B := by
  unfold k0_pay20; exact shapeCast_self B _
theorem pay23_eq (B : Vec Ideal S1x512 .f32) : k0_pay23 (F := Ideal) B = B := by
  unfold k0_pay23; exact shapeCast_self B _
theorem pay26_eq (B : Vec Ideal S1x512 .f32) : k0_pay26 (F := Ideal) B = B := by
  unfold k0_pay26; exact shapeCast_self B _
theorem pay29_eq (B : Vec Ideal S1x512 .f32) : k0_pay29 (F := Ideal) B = B := by
  unfold k0_pay29; exact shapeCast_self B _
theorem pay32_eq (B : Vec Ideal S1x512 .f32) : k0_pay32 (F := Ideal) B = B := by
  unfold k0_pay32; exact shapeCast_self B _
theorem pay35_eq (B : Vec Ideal S1x512 .f32) : k0_pay35 (F := Ideal) B = B := by
  unfold k0_pay35; exact shapeCast_self B _

theorem pay3_apply (A : Vec Ideal S512x1 .f32) (p q : Fin 512) :
    k0_pay3 (F := Ideal) A (ix2 p q) = A (ix2 p (0 : Fin 1)) := by
  unfold k0_pay3; exact colB A p q
theorem pay6_apply (A : Vec Ideal S512x1 .f32) (p q : Fin 512) :
    k0_pay6 (F := Ideal) A (ix2 p q) = A (ix2 p (0 : Fin 1)) := by
  unfold k0_pay6; exact colB A p q
theorem pay9_apply (A : Vec Ideal S512x1 .f32) (p q : Fin 512) :
    k0_pay9 (F := Ideal) A (ix2 p q) = A (ix2 p (0 : Fin 1)) := by
  unfold k0_pay9; exact colB A p q
theorem pay12_apply (A : Vec Ideal S512x1 .f32) (p q : Fin 512) :
    k0_pay12 (F := Ideal) A (ix2 p q) = A (ix2 p (0 : Fin 1)) := by
  unfold k0_pay12; exact colB A p q
theorem pay15_apply (A : Vec Ideal S512x1 .f32) (p q : Fin 512) :
    k0_pay15 (F := Ideal) A (ix2 p q) = A (ix2 p (0 : Fin 1)) := by
  unfold k0_pay15; exact colB A p q
theorem pay18_apply (A : Vec Ideal S512x1 .f32) (p q : Fin 512) :
    k0_pay18 (F := Ideal) A (ix2 p q) = A (ix2 p (0 : Fin 1)) := by
  unfold k0_pay18; exact colB A p q
theorem pay21_apply (A : Vec Ideal S512x1 .f32) (p q : Fin 512) :
    k0_pay21 (F := Ideal) A (ix2 p q) = A (ix2 p (0 : Fin 1)) := by
  unfold k0_pay21; exact colB A p q
theorem pay24_apply (A : Vec Ideal S512x1 .f32) (p q : Fin 512) :
    k0_pay24 (F := Ideal) A (ix2 p q) = A (ix2 p (0 : Fin 1)) := by
  unfold k0_pay24; exact colB A p q
theorem pay27_apply (A : Vec Ideal S512x1 .f32) (p q : Fin 512) :
    k0_pay27 (F := Ideal) A (ix2 p q) = A (ix2 p (0 : Fin 1)) := by
  unfold k0_pay27; exact colB A p q
theorem pay30_apply (A : Vec Ideal S512x1 .f32) (p q : Fin 512) :
    k0_pay30 (F := Ideal) A (ix2 p q) = A (ix2 p (0 : Fin 1)) := by
  unfold k0_pay30; exact colB A p q
theorem pay33_apply (A : Vec Ideal S512x1 .f32) (p q : Fin 512) :
    k0_pay33 (F := Ideal) A (ix2 p q) = A (ix2 p (0 : Fin 1)) := by
  unfold k0_pay33; exact colB A p q
theorem pay36_apply (A : Vec Ideal S512x1 .f32) (p q : Fin 512) :
    k0_pay36 (F := Ideal) A (ix2 p q) = A (ix2 p (0 : Fin 1)) := by
  unfold k0_pay36; exact colB A p q

/-! A middle part: the accumulator it was given, the carried term, and four more. -/

theorem pay4_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay4 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay4
  simp only [addf_apply, subf_apply, absf_apply, exp_apply, broadcast_apply, shapeCast_self, colB, rowB, term, absd]
theorem pay7_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay7 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay7
  simp only [addf_apply, subf_apply, absf_apply, exp_apply, broadcast_apply, shapeCast_self, colB, rowB, term, absd]
theorem pay10_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay10 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay10
  simp only [addf_apply, subf_apply, absf_apply, exp_apply, broadcast_apply, shapeCast_self, colB, rowB, term, absd]
theorem pay13_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay13 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay13
  simp only [addf_apply, subf_apply, absf_apply, exp_apply, broadcast_apply, shapeCast_self, colB, rowB, term, absd]
theorem pay16_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay16 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay16
  simp only [addf_apply, subf_apply, absf_apply, exp_apply, broadcast_apply, shapeCast_self, colB, rowB, term, absd]
theorem pay19_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay19 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay19
  simp only [addf_apply, subf_apply, absf_apply, exp_apply, broadcast_apply, shapeCast_self, colB, rowB, term, absd]
theorem pay22_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay22 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay22
  simp only [addf_apply, subf_apply, absf_apply, exp_apply, broadcast_apply, shapeCast_self, colB, rowB, term, absd]
theorem pay25_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay25 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay25
  simp only [addf_apply, subf_apply, absf_apply, exp_apply, broadcast_apply, shapeCast_self, colB, rowB, term, absd]
theorem pay28_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay28 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay28
  simp only [addf_apply, subf_apply, absf_apply, exp_apply, broadcast_apply, shapeCast_self, colB, rowB, term, absd]
theorem pay31_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay31 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay31
  simp only [addf_apply, subf_apply, absf_apply, exp_apply, broadcast_apply, shapeCast_self, colB, rowB, term, absd]
theorem pay34_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay34 (F := Ideal) acc row col A1 B1 A2 B2 A3 B3 A4 B4 (ix2 p q)
      = acc (ix2 p q) + absd (col (ix2 p q)) (row (ix2 (0 : Fin 1) q)) + term A1 B1 p q + term A2 B2 p q + term A3 B3 p q + term A4 B4 p q := by
  unfold k0_pay34
  simp only [addf_apply, subf_apply, absf_apply, exp_apply, broadcast_apply, shapeCast_self, colB, rowB, term, absd]

/-- The last part: the carried term and four more, then `exp (0 − accumulator)`. -/
theorem pay37_apply (acc : FVec Ideal S512x512 .f32) (row : FVec Ideal S1x512 .f32) (col : FVec Ideal S512x512 .f32)
    (A1 : Vec Ideal S512x1 .f32) (B1 : Vec Ideal S1x512 .f32) (A2 : Vec Ideal S512x1 .f32) (B2 : Vec Ideal S1x512 .f32) (A3 : Vec Ideal S512x1 .f32) (B3 : Vec Ideal S1x512 .f32) (A4 : Vec Ideal S512x1 .f32) (B4 : Vec Ideal S1x512 .f32) (p q : Fin 512) :
    k0_pay37 (F := Ideal) acc row col A1 B1 A2 B2 A3 B3 A4 B4 (ix2 p q)
      = Ideal.exp (Z - (acc (ix2 p q) + absd (col (ix2 p q)) (row (ix2 (0 : Fin 1) q)) + term A1 B1 p q + term A2 B2 p q + term A3 B3 p q + term A4 B4 p q)) := by
  unfold k0_pay37
  simp only [addf_apply, subf_apply, absf_apply, exp_apply, broadcast_apply, shapeCast_self, colB, rowB, term, absd]

end Cert.KernelIdeal.Body

end
-- ==== Proof.Block.lean ====
/-
  What one grid point leaves in the output block. The body's one store covers the whole `[512, 512]` staging buffer, so
  the block is the store's value; read at `(p, q)` through the thirteen parts it is
  `exp (0 − (0 + |x0[p,0] − x1[0,q]| + … + |x0[p,63] − x1[63,q]|))` for the row block `x0` (`[512, 64]`) and the column
  block `x1` (`[64, 512]`) — the loads being the columns of `x0` and the rows of `x1` —, which is `mask x0 x1` at
  `(p, q)`: sixty-four terms added in order are their sum, and `0 − s = −s` on the extended reals.
-/
import proofs.«104463_j32564442038291_2_alg».proof.Proof.Gen.KernelIdeal.Frame
import proofs.«104463_j32564442038291_2_alg».proof.Proof.Payloads

noncomputable section

open scoped BigOperators

namespace Cert.KernelIdeal.Body

open Cert.KernelIdeal Cert.KernelIdeal.Gen Idealize.ShloMosaic Idealize.ShloMosaic.ValueIdx Cert.L1Mask Cert.BlockLoads

theorem zero_offsets : (![0, 0] : Fin 2 → Nat) = fun _ => 0 := funext fun a => by fin_cases a <;> rfl

/-- The block a point leaves, at `(p, q)`, is `exp (−Σ_k |x0[p,k] − x1[k,q]|)` of its two input blocks. -/
theorem block_at (x0 : Vec Ideal S512x64 .f32) (x1 : Vec Ideal S64x512 .f32) (p q : Fin 512) :
    out0_2 (F := Ideal) x0 x1 (ix2 p q) = mask x0 x1 (ix2 p q) := by
  unfold out0_2
  rw [View.canon_unit_zero zero_offsets]
  rw [pay37_apply, pay34_apply, pay31_apply, pay28_apply, pay25_apply, pay22_apply, pay19_apply, pay16_apply, pay13_apply, pay10_apply, pay7_apply, pay4_apply, pay1_apply]
  simp only [pay2_eq, pay5_eq, pay8_eq, pay11_eq, pay14_eq, pay17_eq, pay20_eq, pay23_eq, pay26_eq, pay29_eq, pay32_eq, pay35_eq, pay3_apply, pay6_apply, pay9_apply, pay12_apply, pay15_apply, pay18_apply, pay21_apply, pay24_apply, pay27_apply, pay30_apply, pay33_apply, pay36_apply, term]
  rw [ld_col x0 0 (by norm_num) inb_S512x64_S512x1_0_0 p, ld_row x1 0 (by norm_num) inb_S64x512_S1x512_0_0 q,
    ld_col x0 1 (by norm_num) inb_S512x64_S512x1_0_1 p, ld_row x1 1 (by norm_num) inb_S64x512_S1x512_1_0 q,
    ld_col x0 2 (by norm_num) inb_S512x64_S512x1_0_2 p, ld_row x1 2 (by norm_num) inb_S64x512_S1x512_2_0 q,
    ld_col x0 3 (by norm_num) inb_S512x64_S512x1_0_3 p, ld_row x1 3 (by norm_num) inb_S64x512_S1x512_3_0 q,
    ld_col x0 4 (by norm_num) inb_S512x64_S512x1_0_4 p, ld_row x1 4 (by norm_num) inb_S64x512_S1x512_4_0 q,
    ld_col x0 5 (by norm_num) inb_S512x64_S512x1_0_5 p, ld_row x1 5 (by norm_num) inb_S64x512_S1x512_5_0 q,
    ld_col x0 6 (by norm_num) inb_S512x64_S512x1_0_6 p, ld_row x1 6 (by norm_num) inb_S64x512_S1x512_6_0 q,
    ld_col x0 7 (by norm_num) inb_S512x64_S512x1_0_7 p, ld_row x1 7 (by norm_num) inb_S64x512_S1x512_7_0 q,
    ld_col x0 8 (by norm_num) inb_S512x64_S512x1_0_8 p, ld_row x1 8 (by norm_num) inb_S64x512_S1x512_8_0 q,
    ld_col x0 9 (by norm_num) inb_S512x64_S512x1_0_9 p, ld_row x1 9 (by norm_num) inb_S64x512_S1x512_9_0 q,
    ld_col x0 10 (by norm_num) inb_S512x64_S512x1_0_10 p, ld_row x1 10 (by norm_num) inb_S64x512_S1x512_10_0 q,
    ld_col x0 11 (by norm_num) inb_S512x64_S512x1_0_11 p, ld_row x1 11 (by norm_num) inb_S64x512_S1x512_11_0 q,
    ld_col x0 12 (by norm_num) inb_S512x64_S512x1_0_12 p, ld_row x1 12 (by norm_num) inb_S64x512_S1x512_12_0 q,
    ld_col x0 13 (by norm_num) inb_S512x64_S512x1_0_13 p, ld_row x1 13 (by norm_num) inb_S64x512_S1x512_13_0 q,
    ld_col x0 14 (by norm_num) inb_S512x64_S512x1_0_14 p, ld_row x1 14 (by norm_num) inb_S64x512_S1x512_14_0 q,
    ld_col x0 15 (by norm_num) inb_S512x64_S512x1_0_15 p, ld_row x1 15 (by norm_num) inb_S64x512_S1x512_15_0 q,
    ld_col x0 16 (by norm_num) inb_S512x64_S512x1_0_16 p, ld_row x1 16 (by norm_num) inb_S64x512_S1x512_16_0 q,
    ld_col x0 17 (by norm_num) inb_S512x64_S512x1_0_17 p, ld_row x1 17 (by norm_num) inb_S64x512_S1x512_17_0 q,
    ld_col x0 18 (by norm_num) inb_S512x64_S512x1_0_18 p, ld_row x1 18 (by norm_num) inb_S64x512_S1x512_18_0 q,
    ld_col x0 19 (by norm_num) inb_S512x64_S512x1_0_19 p, ld_row x1 19 (by norm_num) inb_S64x512_S1x512_19_0 q,
    ld_col x0 20 (by norm_num) inb_S512x64_S512x1_0_20 p, ld_row x1 20 (by norm_num) inb_S64x512_S1x512_20_0 q,
    ld_col x0 21 (by norm_num) inb_S512x64_S512x1_0_21 p, ld_row x1 21 (by norm_num) inb_S64x512_S1x512_21_0 q,
    ld_col x0 22 (by norm_num) inb_S512x64_S512x1_0_22 p, ld_row x1 22 (by norm_num) inb_S64x512_S1x512_22_0 q,
    ld_col x0 23 (by norm_num) inb_S512x64_S512x1_0_23 p, ld_row x1 23 (by norm_num) inb_S64x512_S1x512_23_0 q,
    ld_col x0 24 (by norm_num) inb_S512x64_S512x1_0_24 p, ld_row x1 24 (by norm_num) inb_S64x512_S1x512_24_0 q,
    ld_col x0 25 (by norm_num) inb_S512x64_S512x1_0_25 p, ld_row x1 25 (by norm_num) inb_S64x512_S1x512_25_0 q,
    ld_col x0 26 (by norm_num) inb_S512x64_S512x1_0_26 p, ld_row x1 26 (by norm_num) inb_S64x512_S1x512_26_0 q,
    ld_col x0 27 (by norm_num) inb_S512x64_S512x1_0_27 p, ld_row x1 27 (by norm_num) inb_S64x512_S1x512_27_0 q,
    ld_col x0 28 (by norm_num) inb_S512x64_S512x1_0_28 p, ld_row x1 28 (by norm_num) inb_S64x512_S1x512_28_0 q,
    ld_col x0 29 (by norm_num) inb_S512x64_S512x1_0_29 p, ld_row x1 29 (by norm_num) inb_S64x512_S1x512_29_0 q,
    ld_col x0 30 (by norm_num) inb_S512x64_S512x1_0_30 p, ld_row x1 30 (by norm_num) inb_S64x512_S1x512_30_0 q,
    ld_col x0 31 (by norm_num) inb_S512x64_S512x1_0_31 p, ld_row x1 31 (by norm_num) inb_S64x512_S1x512_31_0 q,
    ld_col x0 32 (by norm_num) inb_S512x64_S512x1_0_32 p, ld_row x1 32 (by norm_num) inb_S64x512_S1x512_32_0 q,
    ld_col x0 33 (by norm_num) inb_S512x64_S512x1_0_33 p, ld_row x1 33 (by norm_num) inb_S64x512_S1x512_33_0 q,
    ld_col x0 34 (by norm_num) inb_S512x64_S512x1_0_34 p, ld_row x1 34 (by norm_num) inb_S64x512_S1x512_34_0 q,
    ld_col x0 35 (by norm_num) inb_S512x64_S512x1_0_35 p, ld_row x1 35 (by norm_num) inb_S64x512_S1x512_35_0 q,
    ld_col x0 36 (by norm_num) inb_S512x64_S512x1_0_36 p, ld_row x1 36 (by norm_num) inb_S64x512_S1x512_36_0 q,
    ld_col x0 37 (by norm_num) inb_S512x64_S512x1_0_37 p, ld_row x1 37 (by norm_num) inb_S64x512_S1x512_37_0 q,
    ld_col x0 38 (by norm_num) inb_S512x64_S512x1_0_38 p, ld_row x1 38 (by norm_num) inb_S64x512_S1x512_38_0 q,
    ld_col x0 39 (by norm_num) inb_S512x64_S512x1_0_39 p, ld_row x1 39 (by norm_num) inb_S64x512_S1x512_39_0 q,
    ld_col x0 40 (by norm_num) inb_S512x64_S512x1_0_40 p, ld_row x1 40 (by norm_num) inb_S64x512_S1x512_40_0 q,
    ld_col x0 41 (by norm_num) inb_S512x64_S512x1_0_41 p, ld_row x1 41 (by norm_num) inb_S64x512_S1x512_41_0 q,
    ld_col x0 42 (by norm_num) inb_S512x64_S512x1_0_42 p, ld_row x1 42 (by norm_num) inb_S64x512_S1x512_42_0 q,
    ld_col x0 43 (by norm_num) inb_S512x64_S512x1_0_43 p, ld_row x1 43 (by norm_num) inb_S64x512_S1x512_43_0 q,
    ld_col x0 44 (by norm_num) inb_S512x64_S512x1_0_44 p, ld_row x1 44 (by norm_num) inb_S64x512_S1x512_44_0 q,
    ld_col x0 45 (by norm_num) inb_S512x64_S512x1_0_45 p, ld_row x1 45 (by norm_num) inb_S64x512_S1x512_45_0 q,
    ld_col x0 46 (by norm_num) inb_S512x64_S512x1_0_46 p, ld_row x1 46 (by norm_num) inb_S64x512_S1x512_46_0 q,
    ld_col x0 47 (by norm_num) inb_S512x64_S512x1_0_47 p, ld_row x1 47 (by norm_num) inb_S64x512_S1x512_47_0 q,
    ld_col x0 48 (by norm_num) inb_S512x64_S512x1_0_48 p, ld_row x1 48 (by norm_num) inb_S64x512_S1x512_48_0 q,
    ld_col x0 49 (by norm_num) inb_S512x64_S512x1_0_49 p, ld_row x1 49 (by norm_num) inb_S64x512_S1x512_49_0 q,
    ld_col x0 50 (by norm_num) inb_S512x64_S512x1_0_50 p, ld_row x1 50 (by norm_num) inb_S64x512_S1x512_50_0 q,
    ld_col x0 51 (by norm_num) inb_S512x64_S512x1_0_51 p, ld_row x1 51 (by norm_num) inb_S64x512_S1x512_51_0 q,
    ld_col x0 52 (by norm_num) inb_S512x64_S512x1_0_52 p, ld_row x1 52 (by norm_num) inb_S64x512_S1x512_52_0 q,
    ld_col x0 53 (by norm_num) inb_S512x64_S512x1_0_53 p, ld_row x1 53 (by norm_num) inb_S64x512_S1x512_53_0 q,
    ld_col x0 54 (by norm_num) inb_S512x64_S512x1_0_54 p, ld_row x1 54 (by norm_num) inb_S64x512_S1x512_54_0 q,
    ld_col x0 55 (by norm_num) inb_S512x64_S512x1_0_55 p, ld_row x1 55 (by norm_num) inb_S64x512_S1x512_55_0 q,
    ld_col x0 56 (by norm_num) inb_S512x64_S512x1_0_56 p, ld_row x1 56 (by norm_num) inb_S64x512_S1x512_56_0 q,
    ld_col x0 57 (by norm_num) inb_S512x64_S512x1_0_57 p, ld_row x1 57 (by norm_num) inb_S64x512_S1x512_57_0 q,
    ld_col x0 58 (by norm_num) inb_S512x64_S512x1_0_58 p, ld_row x1 58 (by norm_num) inb_S64x512_S1x512_58_0 q,
    ld_col x0 59 (by norm_num) inb_S512x64_S512x1_0_59 p, ld_row x1 59 (by norm_num) inb_S64x512_S1x512_59_0 q,
    ld_col x0 60 (by norm_num) inb_S512x64_S512x1_0_60 p, ld_row x1 60 (by norm_num) inb_S64x512_S1x512_60_0 q,
    ld_col x0 61 (by norm_num) inb_S512x64_S512x1_0_61 p, ld_row x1 61 (by norm_num) inb_S64x512_S1x512_61_0 q,
    ld_col x0 62 (by norm_num) inb_S512x64_S512x1_0_62 p, ld_row x1 62 (by norm_num) inb_S64x512_S1x512_62_0 q,
    ld_col x0 63 (by norm_num) inb_S512x64_S512x1_0_63 p, ld_row x1 63 (by norm_num) inb_S64x512_S1x512_63_0 q]
  rw [mask_apply]
  refine congrArg Ideal.exp ?_
  refine (congrArg (fun s => Z - s) (chain64 (fun k => absd (x0 (ix2 p k)) (x1 (ix2 k q))) Z)).trans ?_
  rw [show (Z : EReal) = 0 from Ideal.ofBits_zero_f32, zero_add, zero_sub]

end Cert.KernelIdeal.Body

end
-- ==== Proof.KernelValue.lean ====
/-
  The kernel's whole output array. The grid is `4 × 4`; point `(i, j)` is given rows `512 i … 512 i + 511` of the
  argument (window 0), columns `512 j … 512 j + 511` of its transposed copy, which the host writes before the region
  (window 1), and writes back block `(i, j)` of the `[2048, 2048]` result (window 2). What it writes back is block
  `(i, j)` of ONE array, `mask` of the argument and the transposed copy: entry `(p, q)` of the block depends on row
  `512 i + p` of the first and column `512 j + q` of the second only. The sixteen blocks tile the result, so after the
  run the result array is that `mask`, which is the pairwise mask of the argument's rows.
-/
import proofs.«104463_j32564442038291_2_alg».proof.Proof.Gen.KernelIdeal.Frame
import proofs.«104463_j32564442038291_2_alg».proof.Proof.Block
import Idealize.ShloMosaic.Lib.Pipeline.Value
import Idealize.ShloMosaic.Lib.ValueLayout
import Idealize.ShloMosaic.Lib.StableHlo.Run

noncomputable section

open scoped BigOperators

namespace Cert.KernelIdeal.Whole

open Cert.KernelIdeal Cert.KernelIdeal.Gen Cert.KernelIdeal.Body Idealize.ShloMosaic Idealize.ShloMosaic.TcCoe Idealize.SL.Sem
open Idealize.ShloMosaic.ValueIdx Cert.L1Mask
open Idealize.ShloMosaic.Pipeline (Dat)

variable (m : (ℓ : Loc nD τ sig) → Buf (Elt Ideal) ℓ) (ρ : Dev nD → PrngReg)

/-- The transposed copy as the region finds it: the host's transpose of the argument. -/
theorem V_main_v0 (c : Dev nD) :
    (V m c main_v0 : S64x2048.Idx → EReal)
      = transpose S64x2048 [1, 0] (m ((c : Thread nD τ).loc main_arg0)) transposes_S2048x64_S64x2048_1_0 := by
  dsimp only [Gen.V, Gen.hostOps0]; after_results

/-- The printed index maps over the sixteen points: the row block moves with the output's row of blocks and the column
    block with its column of blocks; the other block index of each input stays 0. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the `4 × 4` tiling is some point's. -/
theorem idx_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- The row block at point `t`, at `(p, k)`, is the argument at `(r, k)` for the row `r` that lies `p` below the
    output block's first row. -/
theorem rowBlock_apply (c : Dev nD) (t : Fin cfg0.N) (p : Fin 512) (k : Fin 64) (r : Fin 2048)
    (hr : r.val = win0_2.index t (0 : Fin 2) * 512 + p.val) :
    (iblk m c 0 t : Vec Ideal S512x64 .f32) (ix2 p k) = (V m c main_arg0 : S2048x64.Idx → EReal) (ix2 r k) := by
  obtain ⟨e0, e1, -, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 512 + 1 * p.val = r.val; rw [e0, hr]; omega
  | ⟨1, _⟩ => show win0_0.index t (1 : Fin 2) * 64 + 1 * k.val = k.val; rw [e1]; omega

/-- The column block at point `t`, at `(k, q)`, is the transposed copy at `(k, s)` for the column `s` that lies `q`
    right of the output block's first column. -/
theorem colBlock_apply (c : Dev nD) (t : Fin cfg0.N) (k : Fin 64) (q : Fin 512) (s : Fin 2048)
    (hs : s.val = win0_2.index t (1 : Fin 2) * 512 + q.val) :
    (iblk m c 1 t : Vec Ideal S64x512 .f32) (ix2 k q) = (V m c main_v0 : S64x2048.Idx → EReal) (ix2 k s) := by
  obtain ⟨-, -, e2, e3⟩ := idx_facts t
  show V m c main_v0 (((cfg0.win 1).blk t).view.emb (ix2 k q)) = V m c main_v0 (ix2 k s)
  refine congrArg (V m c main_v0) (funext fun a => Fin.ext ?_)
  match a with
  | ⟨0, _⟩ => show win0_1.index t (0 : Fin 2) * 64 + 1 * k.val = k.val; rw [e2]; omega
  | ⟨1, _⟩ => show win0_1.index t (1 : Fin 2) * 512 + 1 * q.val = s.val; rw [e3, hs]; omega

/-- WHAT POINT `t` WRITES BACK is block `t` of `mask` of the argument and the transposed copy. -/
theorem flushed_eq (c : Dev nD) (t : Fin cfg0.N) :
    (dats m 0 c).flushed 2 t
      = ((cfg0.win 2).blk t).view.read (Elt Ideal)
          (mask (V m c main_arg0 : S2048x64.Idx → EReal) (V m c main_v0 : S64x2048.Idx → EReal)) := by
  show (cfg0.win 2).cut (grid0.coords t) ((dats m 0 c).after 2 t) = _
  rw [after0_2]
  funext j
  obtain ⟨p, q, rfl⟩ : ∃ (p q : Fin 512), j = ix2 p q := ⟨j 0, j 1, eq_ix2 j⟩
  show out0_2 (iblk m c 0 t) (iblk m c 1 t) (ix2 p q)
    = mask (V m c main_arg0 : S2048x64.Idx → EReal) (V m c main_v0 : S64x2048.Idx → EReal)
        (((cfg0.win 2).blk t).view.emb (ix2 p q))
  refine (block_at (iblk m c 0 t) (iblk m c 1 t) p q).trans ?_
  rw [mask_apply]
  refine congrArg (fun s => Ideal.exp (-s)) (Finset.sum_congr rfl fun k _ => ?_)
  rw [rowBlock_apply m c t p k ((((cfg0.win 2).blk t).view.emb (ix2 p q)) 0)
        (by show win0_2.index t (0 : Fin 2) * 512 + 1 * p.val = _; omega),
      colBlock_apply m c t k q ((((cfg0.win 2).blk t).view.emb (ix2 p q)) 1)
        (by show win0_2.index t (1 : Fin 2) * 512 + 1 * q.val = _; omega)]

/-- An index of the result is in point `t`'s block iff each coordinate is in the block's range on its axis. -/
theorem mem_blk (t : Fin cfg0.N) (i : S2048x2048.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v1).slice (win0_2.rect t)).set ↔ _
  rw [View.set_slice_whole, Rect.mem_set_unit]
  exact Iff.rfl

/-- Every entry `(r, s)` of the result is in the block of the point whose block indices are `(r / 512, s / 512)`. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- THE RESULT ARRAY after the run: `mask` of the argument and the transposed copy. -/
theorem final (c : Dev nD) :
    (dats m 0 c).arrAt 2 cfg0.N
      = mask (V m c main_arg0 : S2048x64.Idx → EReal) (V m c main_v0 : S64x2048.Idx → EReal) :=
  (dats m 0 c).arrAt_eq_of_cover 2 _ (fun t _ => flushed_eq m c t) cover

/-- With the second operand the transpose of the first, `mask` is the pairwise mask of the argument's rows. -/
theorem mask_transposed (c : Dev nD) :
    mask (V m c main_arg0 : S2048x64.Idx → EReal) (V m c main_v0 : S64x2048.Idx → EReal)
      = pairMask (m ((c : Thread nD τ).loc main_arg0)) := by
  rw [V_main_v0, V_main_arg0]
  unfold pairMask
  refine congrArg (mask _) (funext fun j => ?_)
  obtain ⟨k, r, rfl⟩ : ∃ (k : Fin 64) (r : Fin 2048), j = ix2 k r := ⟨j 0, j 1, eq_ix2 j⟩
  exact transpose_ix2_apply _ _ k r

/-- The kernel's run, read: the result array ends at the pairwise mask of the argument's rows, the argument unchanged. -/
theorem run : θ_run defs (onTc (τ := τ) (main (F := Ideal))) ⟨m, fun _ => 0, ρ⟩ fun r => ∀ c : Dev nD,
      r.2.mem ((c : Thread nD τ).loc main_v1) = pairMask (m ((c : Thread nD τ).loc main_arg0))
      ∧ r.2.mem ((c : Thread nD τ).loc main_arg0) = m ((c : Thread nD τ).loc main_arg0) :=
  (θ_run defs _ _).mono (fun r h c => ⟨(((h c).1 2).trans (final m c)).trans (mask_transposed m c),
      ((h c).1 0).trans (((dats m 0 c).arrAt_in 0 rfl _).trans ((A_eq m c 0).trans (V_main_arg0 m c)))⟩)
    (run_main m ρ)

end Cert.KernelIdeal.Whole

end
-- ==== Proof.RefValue.lean ====
/-
  The reference, entry by entry. It forms the differences `x[i,k] − x[j,k]` as a `[2048, 2048, 64]` array (two
  broadcasts of the argument, one along a new middle axis and one along a new leading axis), takes absolute values, sums
  the last axis from the zero word, negates and exponentiates: at `(i, j)` that is
  `exp (−(0 + Σ_k |x[i,k] − x[j,k]|))`, the pairwise mask of the rows of `x`.
-/
import proofs.«104463_j32564442038291_2_alg».proof.Proof.Gen.ReferenceIdeal.Read
import proofs.«104463_j32564442038291_2_alg».proof.Proof.L1Mask

noncomputable section

open scoped BigOperators

namespace Cert.ReferenceIdeal.RefValue

open Cert.ReferenceIdeal Cert.ReferenceIdeal.Read Idealize.ShloMosaic Idealize.ShloMosaic.ValueIdx Cert.L1Mask

/-- The reference's result is the pairwise mask of its argument's rows. -/
theorem result_eq (x : (⟨S2048x64, .f32⟩ : BufTy).Contents (Elt Ideal)) :
    val_main_v8 (F := Ideal) x = pairMask x := by
  funext i
  have e0 : ∀ k : Fin 64, idx_main_v0 (idx_main_v2 (idx_main_v6 i k)) = ix2 (i 0) k := fun k =>
    funext fun a => Fin.ext (by match a with | ⟨0, _⟩ => rfl | ⟨1, _⟩ => rfl)
  have e1 : ∀ k : Fin 64, idx_main_v1 (idx_main_v3 (idx_main_v6 i k)) = ix2 (i 1) k := fun k =>
    funext fun a => Fin.ext (by match a with | ⟨0, _⟩ => rfl | ⟨1, _⟩ => rfl)
  rw [val_main_v8_apply, val_main_v7_apply, val_main_v6_apply, val_main_cst_apply, pairMask_apply]
  simp only [val_main_v5_apply, val_main_v4_apply, val_main_v3_apply, val_main_v2_apply, val_main_v1_apply,
    val_main_v0_apply, e0, e1]
  show Ideal.exp (-(Ideal.ofBits .f32 0x00000000#32 + ∑ k : Fin 64, absd (x (ix2 (i 0) k)) (x (ix2 (i 1) k)))) = _
  rw [Ideal.ofBits_zero_f32, zero_add]

end Cert.ReferenceIdeal.RefValue

end
-- ==== Proof.lean ====
/-
  The kernel computes, for a `[2048, 64]` matrix `x`, the `[2048, 2048]` matrix `exp (−Σ_k |x[i,k] − x[j,k]|)` — the
  exponential of minus the pairwise L1 distances of the rows of `x` — and returns `x` beside it. It does so block by
  block on a `4 × 4` grid: a point reads 512 rows of `x` and 512 columns of the transposed copy of `x` that the host
  makes first, adds the 64 terms `|x[i,k] − x[j,k]|` one after the other onto a zero accumulator, and stores
  `exp (0 − accumulator)`. The reference forms all differences at once as a `[2048, 2048, 64]` array, sums its last
  axis, negates and exponentiates.
  On the extended reals both are `pairMask x` (Proof/L1Mask.lean): a sum added term by term in order is the sum
  (associativity of addition, which holds at the infinities too, so the inputs' finiteness is never used), and
  `0 − s = −s`. The kernel's side is Proof/KernelValue.lean over Proof/Block.lean and Proof/Payloads.lean, the
  reference's Proof/RefValue.lean over the generated run and its read-at-an-index lemmas. The three frames are the
  generated frame runs; the idealization rewrote nothing, so `preserves` is `True`.
-/
import proofs.«104463_j32564442038291_2_alg».proof.Defs
import proofs.«104463_j32564442038291_2_alg».proof.Proof.Gen.Kernel
import proofs.«104463_j32564442038291_2_alg».proof.Proof.Gen.Kernel.Skeleton
import proofs.«104463_j32564442038291_2_alg».proof.Proof.Gen.Kernel.Launch
import proofs.«104463_j32564442038291_2_alg».proof.Proof.Gen.Kernel.Points
import proofs.«104463_j32564442038291_2_alg».proof.Proof.Gen.Kernel.Frame
import proofs.«104463_j32564442038291_2_alg».proof.Proof.Gen.KernelIdeal
import proofs.«104463_j32564442038291_2_alg».proof.Proof.Gen.KernelIdeal.Skeleton
import proofs.«104463_j32564442038291_2_alg».proof.Proof.Gen.KernelIdeal.Launch
import proofs.«104463_j32564442038291_2_alg».proof.Proof.Gen.KernelIdeal.Points
import proofs.«104463_j32564442038291_2_alg».proof.Proof.Gen.KernelIdeal.Frame
import proofs.«104463_j32564442038291_2_alg».proof.Proof.Gen.ReferenceIdeal
import proofs.«104463_j32564442038291_2_alg».proof.Proof.Gen.Pre_finite_inputs
import proofs.«104463_j32564442038291_2_alg».proof.Proof.Gen.ReferenceIdeal.Run
import proofs.«104463_j32564442038291_2_alg».proof.Proof.Gen.ReferenceIdeal.Read
import proofs.«104463_j32564442038291_2_alg».proof.Proof.KernelValue
import proofs.«104463_j32564442038291_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its argument as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument as it was: its generated run with the result dropped. -/
theorem frame_referenceIdeal : Cert.frame_ReferenceIdeal := fun m ρ _ =>
  (θ_run Cert.ReferenceIdeal.defs _ _).mono (fun _ h c => (h c).2.1) (Cert.ReferenceIdeal.Value.run (F := Ideal) m ρ)

/-- The idealization rewrote no operation. -/
theorem preserves : Cert.preserves_Kernel_KernelIdeal := trivial

/-- Both programs end with the pairwise mask of the argument's rows, and with the argument. -/
theorem algebraic : Cert.algebraic_KernelIdeal_ReferenceIdeal := by
  intro m ρ m' ρ' _ hagree
  refine ⟨fun c => Cert.L1Mask.pairMask (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg0), ?_, ?_⟩
  · exact (θ_run Cert.KernelIdeal.defs _ _).mono (fun _ h c => ⟨(h c).1, (h c).2, (h c).2⟩)
      (Cert.KernelIdeal.Whole.run m ρ)
  · refine (θ_run Cert.ReferenceIdeal.defs _ _).mono (fun _ h c => ⟨?_, ?_, (h c).2.1⟩)
      (Cert.ReferenceIdeal.Value.run (F := Ideal) m' ρ')
    · rw [(h c).1, Cert.ReferenceIdeal.Read.val_main_v8_eq, Cert.ReferenceIdeal.RefValue.result_eq, hagree c]
    · rw [(h c).2.1, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
